-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S16384x16384 : Shape := ⟨2, ![16384, 16384]⟩
abbrev S128x128 : Shape := ⟨2, ![128, 128]⟩
abbrev S128 : Shape := ⟨1, ![128]⟩
abbrev S1x500000 : Shape := ⟨2, ![1, 500000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S16384x16384 1) : IVec S_ 1 :=
  let main_c_5 : IVec S_ 1 := constantI S_ 1 1#1
  let main_v17 : IVec S_ 1 := (fun x v => Host.reduce IntOp.andi x v reducesTo_S16384x16384_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S500000x128 .f32) (main_arg1 : FVec F S500000x128 .f32) (main_arg2 : FVec F S500000x128 .f32) (main_arg3 : FVec F S16384x16384 .f32) (main_arg4 : FVec F S128x128 .f32) (main_arg5 : FVec F S128 .f32) (main_arg6 : IVec S1x500000 32) (main_arg7 : IVec S1x500000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x128 .f32 := Host.absf main_arg2
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S16384x16384 .f32 := Host.absf main_arg3
  let main_cst_4 : FVec F S_ .f32 := constant S_ .f32 0x7F800000#32
  let main_v15 : FVec F S16384x16384 .f32 := broadcastInDim S16384x16384 ![] bcast_S_S16384x16384 main_cst_4
  let main_v16 : IVec S16384x16384 1 := cmpf .olt main_v14 main_v15
  fn_part1 (F := F) main_arg4 main_arg5 main_v13 main_v16
-- ==== Kernel.lean ====
abbrev S500000x128 : Shape := ⟨2, ![500000, 128]⟩
abbrev S16384x16384 : Shape := ⟨2, ![16384, 16384]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x2 : Shape := ⟨2, ![500000, 2]⟩
abbrev S4000x128 : Shape := ⟨2, ![4000, 128]⟩
abbrev S4000x1 : Shape := ⟨2, ![4000, 1]⟩
abbrev S1x128 : Shape := ⟨2, ![1, 128]⟩
abbrev S4000 : Shape := ⟨1, ![4000]⟩

abbrev nBuf : Space → Nat
  | .hbm => 34
  | .vmem => 14
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x128, .f32⟩
  | .hbm, ⟨3, _⟩ => ⟨S16384x16384, .f32⟩
  | .hbm, ⟨4, _⟩ => ⟨S128x128, .f32⟩
  | .hbm, ⟨5, _⟩ => ⟨S128, .f32⟩
  | .hbm, ⟨6, _⟩ => ⟨S1x500000, .i32⟩
  | .hbm, ⟨7, _⟩ => ⟨S1x500000, .i32⟩
  | .hbm, ⟨8, _⟩ => ⟨S500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x1, .i32⟩
  | .hbm, ⟨26, _⟩ => ⟨S500000x2, .i32⟩
  | .hbm, ⟨27, _⟩ => ⟨S500000, .f32⟩
  | .hbm, ⟨28, _⟩ => ⟨S500000x1, .f32⟩
  | .hbm, ⟨29, _⟩ => ⟨S500000x128, .f32⟩
  | .hbm, ⟨30, _⟩ => ⟨S500000x1, .f32⟩
  | .hbm, ⟨31, _⟩ => ⟨S500000x1, .f32⟩
  | .hbm, ⟨32, _⟩ => ⟨S500000, .f32⟩
  | .hbm, ⟨33, _⟩ => ⟨S500000, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S4000x1, .f32⟩
  | .local _ .vmem, ⟨11, _⟩ => ⟨S4000x1, .f32⟩
  | .local _ .vmem, ⟨12, _⟩ => ⟨S4000x1, .f32⟩
  | .local _ .vmem, ⟨13, _⟩ => ⟨S4000x1, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  shapeCasts_S500000_S500000x1 : S500000.ShapeCasts S500000x1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  bitsLt_bf16_f32 : FTy.bits .bf16 < FTy.bits .f32
  broadcasts_S4000x1_S4000x128 : S4000x1.Broadcasts S4000x128
  shapeCasts_S128_S1x128 : S128.ShapeCasts S1x128
  broadcasts_S1x128_S4000x128 : S1x128.Broadcasts S4000x128
  reduces_S4000x128_S4000 : S4000x128.Reduces [1] S4000
  shapeCasts_S4000_S4000x1 : S4000.ShapeCasts S4000x1
  shapeCasts_S500000x1_S500000 : S500000x1.ShapeCasts S500000
  gather_S16384x16384_S500000x2_S500000_n_01_n_n_01_1_11_wf : GatherDims.WF S16384x16384 S500000x2 S500000 [] [0, 1] [] [0, 1] [] 1 ![1, 1]
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S500000x1.size a
  hwx0_2 : ∀ i : grid0.Coords, EltTy.bits .f32 = 32 ∨ (Rect.block (s := S500000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S500000x128.size a
  hwx0_5 : ∀ i : grid0.Coords, EltTy.bits .f32 = 32 ∨ (Rect.block (s := S500000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x1.size a ≤ S500000x1.size a
  hwx0_6 : ∀ i : grid0.Coords, EltTy.bits .f32 = 32 ∨ (Rect.block (s := S500000x1) S4000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x1.size a ≤ S500000x1.size a
  hwx0_7 : ∀ i : grid0.Coords, EltTy.bits .f32 = 32 ∨ (Rect.block (s := S500000x1) S4000x1.size (cc0_transform_7 i) (hinb0_7 i)).WholeWords (EltTy.packing .f32)

variable [Facts₀]

def gather_S16384x16384_S500000x2_S500000_n_01_n_n_01_1_11 : GatherDims S16384x16384 S500000x2 S500000 where
  offsetDims := []
  collapsedSliceDims := [0, 1]
  operandBatchingDims := []
  startIndicesBatchingDims := []
  startIndexMap := [0, 1]
  indexVectorDim := 1
  sliceSizes := ![1, 1]
  wf := gather_S16384x16384_S500000x2_S500000_n_01_n_n_01_1_11_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S4000x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v17_2) S4000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x128 : Shape := ⟨2, ![500000, 128]⟩
abbrev S16384x16384 : Shape := ⟨2, ![16384, 16384]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x2 : Shape := ⟨2, ![500000, 2]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x128, .f32⟩
  | .hbm, ⟨3, _⟩ => ⟨S16384x16384, .f32⟩
  | .hbm, ⟨4, _⟩ => ⟨S128x128, .f32⟩
  | .hbm, ⟨5, _⟩ => ⟨S128, .f32⟩
  | .hbm, ⟨6, _⟩ => ⟨S1x500000, .i32⟩
  | .hbm, ⟨7, _⟩ => ⟨S1x500000, .i32⟩
  | .hbm, ⟨8, _⟩ => ⟨S500000x128, .f32⟩
  | .hbm, ⟨9, _⟩ => ⟨S500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x1, .i32⟩
  | .hbm, ⟨27, _⟩ => ⟨S500000x2, .i32⟩
  | .hbm, ⟨28, _⟩ => ⟨S500000, .f32⟩
  | .hbm, ⟨29, _⟩ => ⟨S500000x1, .f32⟩
  | .hbm, ⟨30, _⟩ => ⟨S500000x128, .f32⟩
  | .hbm, ⟨31, _⟩ => ⟨S500000x128, .f32⟩
  | .hbm, ⟨32, _⟩ => ⟨S1x128, .f32⟩
  | .hbm, ⟨33, _⟩ => ⟨S500000x128, .f32⟩
  | .hbm, ⟨34, _⟩ => ⟨S500000x128, .f32⟩
  | .hbm, ⟨35, _⟩ => ⟨S_, .f32⟩
  | .hbm, ⟨36, _⟩ => ⟨S500000x128, .f32⟩
  | .hbm, ⟨37, _⟩ => ⟨S500000x128, .f32⟩
  | .hbm, ⟨38, _⟩ => ⟨S500000x128, .f32⟩
  | .hbm, ⟨39, _⟩ => ⟨S_, .f32⟩
  | .hbm, ⟨40, _⟩ => ⟨S500000, .f32⟩
  | .hbm, ⟨41, _⟩ => ⟨S500000x128, .f32⟩
  | .hbm, ⟨42, _⟩ => ⟨S_, .f32⟩
  | .hbm, ⟨43, _⟩ => ⟨S500000, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  bcast_S500000x1_S500000x128_0_1 : S500000x1.BroadcastsInDim S500000x128 (![0, 1] : Fin 2 → Fin S500000x128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  reducesTo_S500000x128_S500000_d1 : S500000x128.ReducesTo [1] S500000
  h_S_ : 0 < S_.numel
  dot_S500000x128_S128x128_S500000x128_1_0_0_1_n_n_wf : DotDims.WF S500000x128 S128x128 S500000x128 [1] [0] [0] [1] [] []
  gather_S16384x16384_S500000x2_S500000_n_01_n_n_01_1_11_wf : GatherDims.WF S16384x16384 S500000x2 S500000 [] [0, 1] [] [0, 1] [] 1 ![1, 1]

variable [Facts₀]

def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def gather_S16384x16384_S500000x2_S500000_n_01_n_n_01_1_11 : GatherDims S16384x16384 S500000x2 S500000 where
  offsetDims := []
  collapsedSliceDims := [0, 1]
  operandBatchingDims := []
  startIndicesBatchingDims := []
  startIndexMap := [0, 1]
  indexVectorDim := 1
  sliceSizes := ![1, 1]
  wf := gather_S16384x16384_S500000x2_S500000_n_01_n_n_01_1_11_wf

class Facts : Prop extends Facts₀ where

variable [Facts]
-- ==== Proof.Spec.lean ====
/-
  What both programs compute, as functions of the argument arrays over the extended reals.
  For edge `r` (of 500000) and output unit `u` (of 128):

    hidden r u = max (att r * (∑ k, tpos r k * K k u) + b u) 0

  where `att r` is the gate gathered for the edge, `tpos` the edge's positive-tail features, `K` the
  projection matrix and `b` the bias; and the two scores of an edge are the inner products of its hidden
  row with its positive-tail and its negative-tail features:

    score h x r = ∑ k, h r k * x r k.

  The zero of the rectifier is kept as the float word both programs print; only the zero a sum starts from
  is ever evaluated.
-/
import Idealize.ShloMosaic.PureOps.Ideal
import Idealize.ShloMosaic.Lib.ValueIdx

noncomputable section

open scoped BigOperators

namespace Cert.EdgeScores

open Idealize.ShloMosaic Idealize.ShloMosaic.ValueIdx

/-- The gated, biased and rectified projection of edge `r` at unit `u`. -/
def hiddenAt (tpos : (⟨2, ![500000, 128]⟩ : Shape).Idx → EReal) (att : (⟨1, ![500000]⟩ : Shape).Idx → EReal)
    (K : (⟨2, ![128, 128]⟩ : Shape).Idx → EReal) (b : (⟨1, ![128]⟩ : Shape).Idx → EReal) (r : Fin 500000) (u : Fin 128) : EReal :=
  max (att (ix1 r) * (∑ k : Fin 128, tpos (ix2 r k) * K (ix2 k u)) + b (ix1 u)) (Ideal.ofBits .f32 0x00000000#32)

/-- The hidden array: `hiddenAt` at an index's two coordinates. -/
def hidden (tpos : (⟨2, ![500000, 128]⟩ : Shape).Idx → EReal) (att : (⟨1, ![500000]⟩ : Shape).Idx → EReal)
    (K : (⟨2, ![128, 128]⟩ : Shape).Idx → EReal) (b : (⟨1, ![128]⟩ : Shape).Idx → EReal) :
    (⟨2, ![500000, 128]⟩ : Shape).Idx → EReal :=
  fun i => hiddenAt tpos att K b ⟨(i 0).val, idx2_lt0 i⟩ ⟨(i 1).val, idx2_lt1 i⟩

theorem hidden_ix2 (tpos : (⟨2, ![500000, 128]⟩ : Shape).Idx → EReal) (att : (⟨1, ![500000]⟩ : Shape).Idx → EReal)
    (K : (⟨2, ![128, 128]⟩ : Shape).Idx → EReal) (b : (⟨1, ![128]⟩ : Shape).Idx → EReal) (r : Fin 500000) (u : Fin 128) :
    hidden tpos att K b (ix2 r u) = hiddenAt tpos att K b r u := rfl

/-- An edge's score: the inner product of row `r` of `h` with row `r` of `x`. -/
def scoreAt (h x : (⟨2, ![500000, 128]⟩ : Shape).Idx → EReal) (r : Fin 500000) : EReal :=
  ∑ k : Fin 128, h (ix2 r k) * x (ix2 r k)

/-- The scores as a vector over the edges … -/
def score (h x : (⟨2, ![500000, 128]⟩ : Shape).Idx → EReal) : (⟨1, ![500000]⟩ : Shape).Idx → EReal :=
  fun i => scoreAt h x ⟨(i 0).val, (i 0).isLt⟩

/-- … and as the one-column matrix the kernel writes them into. -/
def scoreCol (h x : (⟨2, ![500000, 128]⟩ : Shape).Idx → EReal) : (⟨2, ![500000, 1]⟩ : Shape).Idx → EReal :=
  fun i => scoreAt h x ⟨(i 0).val, idx2_lt0 i⟩

theorem score_ix1 (h x : (⟨2, ![500000, 128]⟩ : Shape).Idx → EReal) (r : Fin 500000) :
    score h x (ix1 r) = scoreAt h x r := rfl

theorem scoreCol_ix2 (h x : (⟨2, ![500000, 128]⟩ : Shape).Idx → EReal) (r : Fin 500000) (u : Fin 1) :
    scoreCol h x (ix2 r u) = scoreAt h x r := rfl

end Cert.EdgeScores

end
-- ==== Proof.LibKeepdims.lean ====
/-
  Layout operations of a row-wise reduction kept as a column, read at an index written by coordinates:
  a block with two leading unit axes viewed as a matrix and back, a vector viewed as a one-column matrix,
  and a one-column matrix broadcast along its rows.  Each is the general read-at-an-index lemma of the
  layout operation with the operand's index already chosen.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector kept as a column and broadcast along the rows reads, at `(p, c)`, the vector at `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibKeepdims

end
-- ==== Proof.Body.lean ====
/-
  The three values the kernel body stores, read at an index of the block and then as the specification
  at the edge the block's row belongs to.

  The body loads a block of 4000 edges: their positive-tail rows `x0`, negative-tail rows `x1`, gates `x2`
  (a column), and the whole projection matrix `x3` and bias `x4`.  It stores
    * the hidden rows   max (x2 p · (∑ k, x0 p k · x3 k q) + x4 q) 0,
    * and for each tail the row sums of hidden · tail, kept as a column.
  At the ideal values the rounding to bf16 in front of the matrix product is the identity, the product into
  a zero accumulator is the plain sum over the contracted axis, and a lane reduction is the sum over the
  row's 128 entries.  Every lemma is stated over variables for the loaded blocks; the hypotheses `h0 … h4`
  say which entries of the argument arrays the block's entries are.
-/
import proofs.«143007_j14688788152633_2_alg».proof.Proof.Gen.KernelIdeal.Skeleton
import proofs.«143007_j14688788152633_2_alg».proof.Proof.Spec
import proofs.«143007_j14688788152633_2_alg».proof.Proof.LibKeepdims
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.EdgeScores

/-! ## The matrix product at an index -/

/-- The left operand's row is the output's row … -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … its column the contracted coordinate; -/
theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right operand's row is the contracted coordinate … -/
theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and its column the output's column. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block's matrix product into the zero accumulator, at `(p, q)`: the sum over `k` of row `p` of the
    left operand times column `q` of the right one. -/
theorem matmul_at (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## A row's lane sum -/

/-- The sum over a row's 128 lanes, at row `p`. -/
theorem lanesum_at (v : FVec Ideal S4000x128 .f32) (p : Fin 4000) :
    multiReduction .add [1] S4000 v 0x00000000#32 reduces_S4000x128_S4000 (.inl rfl) rfl (ix1 p) = ∑ k : Fin 128, v (ix2 p k) :=
  (Ideal.multiReduction_add_single v 0x00000000#32 reduces_S4000x128_S4000 (.inl rfl) rfl (ix1 p)).trans
    (Finset.sum_congr rfl fun k _ => congrArg v (funext fun a => Fin.ext (by
      match a with
      | ⟨0, _⟩ => rfl
      | ⟨1, _⟩ => rfl)))

/-! ## The hidden rows -/

/-- The first stored value at `(p, q)`: the gate of row `p` times the projected row, plus the bias, rectified. -/
theorem pay1_at (x0 : Vec Ideal S4000x128 .f32) (x2 : Vec Ideal S4000x1 .f32) (x3 : Vec Ideal S128x128 .f32) (x4 : Vec Ideal S128 .f32)
    (p : Fin 4000) (q : Fin 128) :
    k0_pay1 (F := Ideal) x0 x2 x3 x4 (ix2 p q)
      = max (x2 (ix2 p (0 : Fin 1)) * (∑ k : Fin 128, x0 (ix2 p k) * x3 (ix2 k q)) + x4 (ix1 q)) (Ideal.ofBits .f32 0x00000000#32) := by
  unfold k0_pay1
  show max (broadcastTo S4000x128 (shapeCast S4000x1 x2 shapeCasts_S4000x1_S4000x1) broadcasts_S4000x1_S4000x128 (ix2 p q)
      * matmul dot_S4000x128_S128x128_S4000x128_1_0_0_1_n_n none (truncf .bf16 x0 bitsLt_bf16_f32) (truncf .bf16 x3 bitsLt_bf16_f32) (constant (F := Ideal) S4000x128 .f32 0x00000000#32) (ix2 p q)
      + broadcastTo S4000x128 (shapeCast S1x128 x4 shapeCasts_S128_S1x128) broadcasts_S1x128_S4000x128 (ix2 p q)) (Ideal.ofBits .f32 0x00000000#32) = _
  rw [matmul_at, Cert.LibKeepdims.broadcastTo_a1_ab_apply, shapeCast_self, broadcastTo_1b_ab_apply, shapeCast_a_1a_apply]
  rfl

/-- So, when the block's entries are the argument arrays' entries of edge `R`, it is the specification there. -/
theorem pay1_block (x0 : Vec Ideal S4000x128 .f32) (x2 : Vec Ideal S4000x1 .f32) (x3 : Vec Ideal S128x128 .f32) (x4 : Vec Ideal S128 .f32)
    (tpos : (⟨2, ![500000, 128]⟩ : Shape).Idx → EReal) (att : (⟨1, ![500000]⟩ : Shape).Idx → EReal)
    (K : (⟨2, ![128, 128]⟩ : Shape).Idx → EReal) (b : (⟨1, ![128]⟩ : Shape).Idx → EReal)
    (R : Fin 500000) (p : Fin 4000) (q : Fin 128)
    (h0 : ∀ k : Fin 128, x0 (ix2 p k) = tpos (ix2 R k)) (h2 : x2 (ix2 p (0 : Fin 1)) = att (ix1 R))
    (h3 : ∀ k : Fin 128, x3 (ix2 k q) = K (ix2 k q)) (h4 : x4 (ix1 q) = b (ix1 q)) :
    k0_pay1 (F := Ideal) x0 x2 x3 x4 (ix2 p q) = hiddenAt tpos att K b R q := by
  rw [pay1_at, h2, h4]
  unfold hiddenAt
  simp only [h0, h3]

/-! ## The two scores -/

/-- The second stored value at row `p` of its column: the row sum of hidden · positive tail. -/
theorem pay2_at (x0 : Vec Ideal S4000x128 .f32) (x2 : Vec Ideal S4000x1 .f32) (x3 : Vec Ideal S128x128 .f32) (x4 : Vec Ideal S128 .f32)
    (p : Fin 4000) (u : Fin 1) :
    k0_pay2 (F := Ideal) x0 x2 x3 x4 (ix2 p u) = ∑ k : Fin 128, k0_pay1 (F := Ideal) x0 x2 x3 x4 (ix2 p k) * x0 (ix2 p k) := by
  unfold k0_pay2
  exact (Cert.LibKeepdims.shapeCast_a_a1_apply _ shapeCasts_S4000_S4000x1 p u).trans (lanesum_at _ p)

/-- The third stored value at row `p` of its column: the row sum of hidden · negative tail. -/
theorem pay3_at (x0 x1 : Vec Ideal S4000x128 .f32) (x2 : Vec Ideal S4000x1 .f32) (x3 : Vec Ideal S128x128 .f32) (x4 : Vec Ideal S128 .f32)
    (p : Fin 4000) (u : Fin 1) :
    k0_pay3 (F := Ideal) x0 x1 x2 x3 x4 (ix2 p u) = ∑ k : Fin 128, k0_pay1 (F := Ideal) x0 x2 x3 x4 (ix2 p k) * x1 (ix2 p k) := by
  unfold k0_pay3
  exact (Cert.LibKeepdims.shapeCast_a_a1_apply _ shapeCasts_S4000_S4000x1 p u).trans (lanesum_at _ p)

/-- The positive score of edge `R`, when the block's entries are the argument arrays' entries of that edge. -/
theorem pay2_block (x0 : Vec Ideal S4000x128 .f32) (x2 : Vec Ideal S4000x1 .f32) (x3 : Vec Ideal S128x128 .f32) (x4 : Vec Ideal S128 .f32)
    (tpos : (⟨2, ![500000, 128]⟩ : Shape).Idx → EReal) (att : (⟨1, ![500000]⟩ : Shape).Idx → EReal)
    (K : (⟨2, ![128, 128]⟩ : Shape).Idx → EReal) (b : (⟨1, ![128]⟩ : Shape).Idx → EReal)
    (R : Fin 500000) (p : Fin 4000) (u : Fin 1)
    (h0 : ∀ k : Fin 128, x0 (ix2 p k) = tpos (ix2 R k)) (h2 : x2 (ix2 p (0 : Fin 1)) = att (ix1 R))
    (h3 : ∀ k q : Fin 128, x3 (ix2 k q) = K (ix2 k q)) (h4 : ∀ q : Fin 128, x4 (ix1 q) = b (ix1 q)) :
    k0_pay2 (F := Ideal) x0 x2 x3 x4 (ix2 p u) = scoreAt (hidden tpos att K b) tpos R := by
  rw [pay2_at]
  unfold scoreAt
  refine Finset.sum_congr rfl fun k _ => ?_
  rw [pay1_block x0 x2 x3 x4 tpos att K b R p k h0 h2 (fun k' => h3 k' k) (h4 k), h0 k, hidden_ix2]

/-- The negative score of edge `R`, likewise. -/
theorem pay3_block (x0 x1 : Vec Ideal S4000x128 .f32) (x2 : Vec Ideal S4000x1 .f32) (x3 : Vec Ideal S128x128 .f32) (x4 : Vec Ideal S128 .f32)
    (tpos tneg : (⟨2, ![500000, 128]⟩ : Shape).Idx → EReal) (att : (⟨1, ![500000]⟩ : Shape).Idx → EReal)
    (K : (⟨2, ![128, 128]⟩ : Shape).Idx → EReal) (b : (⟨1, ![128]⟩ : Shape).Idx → EReal)
    (R : Fin 500000) (p : Fin 4000) (u : Fin 1)
    (h0 : ∀ k : Fin 128, x0 (ix2 p k) = tpos (ix2 R k)) (h1 : ∀ k : Fin 128, x1 (ix2 p k) = tneg (ix2 R k))
    (h2 : x2 (ix2 p (0 : Fin 1)) = att (ix1 R))
    (h3 : ∀ k q : Fin 128, x3 (ix2 k q) = K (ix2 k q)) (h4 : ∀ q : Fin 128, x4 (ix1 q) = b (ix1 q)) :
    k0_pay3 (F := Ideal) x0 x1 x2 x3 x4 (ix2 p u) = scoreAt (hidden tpos att K b) tneg R := by
  rw [pay3_at]
  unfold scoreAt
  refine Finset.sum_congr rfl fun k _ => ?_
  rw [pay1_block x0 x2 x3 x4 tpos att K b R p k h0 h2 (fun k' => h3 k' k) (h4 k), h1 k, hidden_ix2]

end Cert.KernelIdeal.Body

end
-- ==== Proof.Entry.lean ====
/-
  The gates as the region finds them.

  Before the region the host lines turn the two index rows into start indices — a negative index is read from
  the end (16384 is added to it), the two are paired — and gather one entry of the 16384 × 16384 table per edge;
  the gathered vector is reshaped to a column, and that column is the third window's array.  `gate` names the
  gathered vector as a function of the table and the two index rows; it is never opened: the reference gathers
  with the same operations.
-/
import proofs.«143007_j14688788152633_2_alg».proof.Proof.Gen.KernelIdeal.Frame
import Idealize.ShloMosaic.Lib.StableHlo.Run
import Idealize.ShloMosaic.PureOps.Ideal

noncomputable section

namespace Cert.KernelIdeal.Hand

open Cert.KernelIdeal Cert.KernelIdeal.Gen Idealize.ShloMosaic Idealize.ShloMosaic.TcCoe Idealize.SL.Sem Idealize.ShloMosaic.StableHlo

/-- The gate of every edge: the table read at the edge's (head, tail) pair of indices. -/
def gate (x3 : (⟨S16384x16384, .f32⟩ : BufTy).Contents (Elt Ideal)) (x6 x7 : (⟨S1x500000, .i32⟩ : BufTy).Contents (Elt Ideal)) : (⟨S500000, .f32⟩ : BufTy).Contents (Elt Ideal) :=
  Host.gather gather_S16384x16384_S500000x2_S500000_n_01_n_n_01_1_11 x3
    (concatenate S500000x2 1 [⟨S500000x1, (broadcastInDim S500000x1 ![0] bcast_S500000_S500000x1_0 (select (cmpi .slt (shapeCast _ x6 shapeCasts_S1x500000_S500000) (broadcastInDim S500000 ![] bcast_S_S500000 (constantI S_ 32 0#32))) (addi (shapeCast _ x6 shapeCasts_S1x500000_S500000) (broadcastInDim S500000 ![] bcast_S_S500000 (constantI S_ 32 16384#32))) (shapeCast _ x6 shapeCasts_S1x500000_S500000)))⟩, ⟨S500000x1, (broadcastInDim S500000x1 ![0] bcast_S500000_S500000x1_0 (select (cmpi .slt (shapeCast _ x7 shapeCasts_S1x500000_S500000) (broadcastInDim S500000 ![] bcast_S_S500000 (constantI S_ 32 0#32))) (addi (shapeCast _ x7 shapeCasts_S1x500000_S500000) (broadcastInDim S500000 ![] bcast_S_S500000 (constantI S_ 32 16384#32))) (shapeCast _ x7 shapeCasts_S1x500000_S500000)))⟩] concatenates_S500000x1_S500000x1_S500000x2_d1)

variable (m : (ℓ : Loc nD τ sig) → Buf (Elt Ideal) ℓ)

set_option maxHeartbeats 2000000 in
/-- The third window's array at region entry is the gathered vector as a column. -/
theorem entry_gate (c : Dev nD) :
    V m c main_v16 = shapeCast S500000x1 (gate (m ((c : Thread nD τ).loc main_arg3)) (m ((c : Thread nD τ).loc main_arg6)) (m ((c : Thread nD τ).loc main_arg7))) shapeCasts_S500000_S500000x1 := by
  show StableHlo.after hostOps0 (fun b => m (c, b)) (Proc.devRef .tc main_v16) = _
  after_results_simp
  rfl

end Cert.KernelIdeal.Hand

end
-- ==== Proof.Blocks.lean ====
/-
  From blocks to arrays.  The grid has 125 points; point `t` works on edges `4000·t … 4000·t + 3999`.

  * Each input window's block at point `t`, read at a block index, is the argument array at the edge
    `4000·t + p` (the matrix and the bias are one block, the same at every point; the gates are the column the
    host lines before the region left, read back as the gathered vector).
  * So what point `t` writes back to each output is block `t` of ONE function of the argument arrays: the
    specification's hidden array, and its two scores kept as columns.
  * The 125 blocks tile each output (edge `r` lies in block `r / 4000`), so each output array ends holding that
    function.
-/
import proofs.«143007_j14688788152633_2_alg».proof.Proof.Gen.KernelIdeal.Frame
import proofs.«143007_j14688788152633_2_alg».proof.Proof.Body
import proofs.«143007_j14688788152633_2_alg».proof.Proof.Entry
import Idealize.ShloMosaic.Lib.Pipeline.Value

noncomputable section

open scoped BigOperators

namespace Cert.KernelIdeal.Hand

open Cert.KernelIdeal Cert.KernelIdeal.Gen Cert.KernelIdeal.Body Idealize.ShloMosaic Idealize.ShloMosaic.TcCoe Idealize.SL.Sem
open Idealize.ShloMosaic.ValueIdx Cert.EdgeScores
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 125 points: the five per-edge windows sit at block `t` of the edge
    axis, the matrix and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The edge that row `p` of point `t`'s block is. -/
def edgeOf (t : Fin cfg0.N) (p : Fin 4000) : Fin 500000 :=
  ⟨t.val * 4000 + p.val, by
    have ht : t.val < 125 := lt_of_lt_of_eq t.isLt N_0
    have hp := p.isLt
    omega⟩

theorem edgeOf_val (t : Fin cfg0.N) (p : Fin 4000) : (edgeOf t p).val = t.val * 4000 + p.val := rfl

/-! ## The input blocks -/

/-- The positive-tail block: rows `4000·t + p` of the argument. -/
theorem tpos_block (c : Dev nD) (t : Fin cfg0.N) (p : Fin 4000) (k : Fin 128) :
    (iblk m c 0 t : Vec Ideal S4000x128 .f32) (ix2 p k) = ((m ((c : Thread nD τ).loc main_arg1)) : S500000x128.Idx → EReal) (ix2 (edgeOf t p) k) := by
  obtain ⟨e00, e01, e10, e11, e20, e21, e30, e31, e40, e50, e51, e60, e61, e70, e71⟩ := idx_facts t
  unfold iblk
  rw [View.read_apply]
  show V m c main_arg1 _ = _
  rw [V_main_arg1]
  refine congrArg _ (funext fun a => Fin.ext ?_)
  match a with
  | ⟨0, _⟩ => show win0_0.index t (0 : Fin 2) * 4000 + 1 * p.val = t.val * 4000 + p.val; rw [e00]; omega
  | ⟨1, _⟩ => show win0_0.index t (1 : Fin 2) * 128 + 1 * k.val = k.val; rw [e01]; omega

/-- The negative-tail block, likewise. -/
theorem tneg_block (c : Dev nD) (t : Fin cfg0.N) (p : Fin 4000) (k : Fin 128) :
    (iblk m c 1 t : Vec Ideal S4000x128 .f32) (ix2 p k) = ((m ((c : Thread nD τ).loc main_arg2)) : S500000x128.Idx → EReal) (ix2 (edgeOf t p) k) := by
  obtain ⟨e00, e01, e10, e11, e20, e21, e30, e31, e40, e50, e51, e60, e61, e70, e71⟩ := idx_facts t
  unfold iblk
  rw [View.read_apply]
  show V m c main_arg2 _ = _
  rw [V_main_arg2]
  refine congrArg _ (funext fun a => Fin.ext ?_)
  match a with
  | ⟨0, _⟩ => show win0_1.index t (0 : Fin 2) * 4000 + 1 * p.val = t.val * 4000 + p.val; rw [e10]; omega
  | ⟨1, _⟩ => show win0_1.index t (1 : Fin 2) * 128 + 1 * k.val = k.val; rw [e11]; omega

/-- The gate block: the gathered gate of edge `4000·t + p` (the column the region finds is that vector, reshaped). -/
theorem gate_block (c : Dev nD) (t : Fin cfg0.N) (p : Fin 4000) :
    (iblk m c 2 t : Vec Ideal S4000x1 .f32) (ix2 p (0 : Fin 1)) = (gate (m ((c : Thread nD τ).loc main_arg3)) (m ((c : Thread nD τ).loc main_arg6)) (m ((c : Thread nD τ).loc main_arg7))) (ix1 (edgeOf t p)) := by
  obtain ⟨e00, e01, e10, e11, e20, e21, e30, e31, e40, e50, e51, e60, e61, e70, e71⟩ := idx_facts t
  unfold iblk
  rw [View.read_apply]
  show V m c main_v16 _ = _
  rw [entry_gate]
  refine (congrArg _ (funext fun a => Fin.ext ?_)).trans
    (Cert.LibKeepdims.shapeCast_a_a1_apply _ shapeCasts_S500000_S500000x1 (edgeOf t p) (0 : Fin 1))
  match a with
  | ⟨0, _⟩ => show win0_2.index t (0 : Fin 2) * 4000 + 1 * p.val = t.val * 4000 + p.val; rw [e20]; omega
  | ⟨1, _⟩ => show win0_2.index t (1 : Fin 2) * 1 + 1 * 0 = 0; rw [e21]

/-- The projection matrix: one block, the whole argument. -/
theorem proj_block (c : Dev nD) (t : Fin cfg0.N) (k q : Fin 128) :
    (iblk m c 3 t : Vec Ideal S128x128 .f32) (ix2 k q) = ((m ((c : Thread nD τ).loc main_arg4)) : S128x128.Idx → EReal) (ix2 k q) := by
  obtain ⟨e00, e01, e10, e11, e20, e21, e30, e31, e40, e50, e51, e60, e61, e70, e71⟩ := idx_facts t
  unfold iblk
  rw [View.read_apply]
  show V m c main_arg4 _ = _
  rw [V_main_arg4]
  refine congrArg _ (funext fun a => Fin.ext ?_)
  match a with
  | ⟨0, _⟩ => show win0_3.index t (0 : Fin 2) * 128 + 1 * k.val = k.val; rw [e30]; omega
  | ⟨1, _⟩ => show win0_3.index t (1 : Fin 2) * 128 + 1 * q.val = q.val; rw [e31]; omega

/-- The bias: one block, the whole argument. -/
theorem bias_block (c : Dev nD) (t : Fin cfg0.N) (q : Fin 128) :
    (iblk m c 4 t : Vec Ideal S128 .f32) (ix1 q) = ((m ((c : Thread nD τ).loc main_arg5)) : S128.Idx → EReal) (ix1 q) := by
  obtain ⟨e00, e01, e10, e11, e20, e21, e30, e31, e40, e50, e51, e60, e61, e70, e71⟩ := idx_facts t
  unfold iblk
  rw [View.read_apply]
  show V m c main_arg5 _ = _
  rw [V_main_arg5]
  refine congrArg _ (funext fun a => Fin.ext ?_)
  match a with
  | ⟨0, _⟩ => show win0_4.index t (0 : Fin 1) * 128 + 1 * q.val = q.val; rw [e40]; omega

/-! ## What each output array ends holding -/

/-- The hidden array of the arguments. -/
def hiddenK (c : Dev nD) : Buf (Elt Ideal) ((c : Thread nD τ).loc main_v17_0) := (hidden (m ((c : Thread nD τ).loc main_arg1)) (gate (m ((c : Thread nD τ).loc main_arg3)) (m ((c : Thread nD τ).loc main_arg6)) (m ((c : Thread nD τ).loc main_arg7))) (m ((c : Thread nD τ).loc main_arg4)) (m ((c : Thread nD τ).loc main_arg5)))

/-- The positive scores, as the column the kernel writes. -/
def posK (c : Dev nD) : Buf (Elt Ideal) ((c : Thread nD τ).loc main_v17_1) := scoreCol (hidden (m ((c : Thread nD τ).loc main_arg1)) (gate (m ((c : Thread nD τ).loc main_arg3)) (m ((c : Thread nD τ).loc main_arg6)) (m ((c : Thread nD τ).loc main_arg7))) (m ((c : Thread nD τ).loc main_arg4)) (m ((c : Thread nD τ).loc main_arg5))) (m ((c : Thread nD τ).loc main_arg1))

/-- The negative scores, as the column the kernel writes. -/
def negK (c : Dev nD) : Buf (Elt Ideal) ((c : Thread nD τ).loc main_v17_2) := scoreCol (hidden (m ((c : Thread nD τ).loc main_arg1)) (gate (m ((c : Thread nD τ).loc main_arg3)) (m ((c : Thread nD τ).loc main_arg6)) (m ((c : Thread nD τ).loc main_arg7))) (m ((c : Thread nD τ).loc main_arg4)) (m ((c : Thread nD τ).loc main_arg5))) (m ((c : Thread nD τ).loc main_arg2))

/-! ## What a point writes back -/

/-- Point `t` writes back block `t` of the hidden array. -/
theorem flushed5_eq (c : Dev nD) (t : Fin cfg0.N) :
    (dats m 0 c).flushed 5 t = ((cfg0.win 5).blk t).view.read (Elt Ideal) (hiddenK m c) := by
  obtain ⟨e00, e01, e10, e11, e20, e21, e30, e31, e40, e50, e51, e60, e61, e70, e71⟩ := idx_facts t
  show (cfg0.win 5).cut (grid0.coords t) ((dats m 0 c).after 5 t) = _
  rw [after0_5]
  unfold out0_5
  rw [View.canon_unit_zero hz2]
  simp only [View.ld_unit_zero (S := S4000x128) hz2, View.ld_unit_zero (S := S4000x1) hz2, View.ld_unit_zero (S := S128x128) hz2,
    View.ld_unit_zero (S := S128) hz1]
  funext j
  obtain ⟨p, q, rfl⟩ : ∃ (p : Fin 4000) (q : Fin 128), j = ix2 p q := ⟨j 0, j 1, eq_ix2 j⟩
  rw [View.read_apply]
  have hemb : ((cfg0.win 5).blk t).view.emb (ix2 p q) = (ix2 (edgeOf t p) q : S500000x128.Idx) := funext fun a => Fin.ext (by
    match a with
    | ⟨0, _⟩ => show win0_5.index t (0 : Fin 2) * 4000 + 1 * p.val = t.val * 4000 + p.val; rw [e50]; omega
    | ⟨1, _⟩ => show win0_5.index t (1 : Fin 2) * 128 + 1 * q.val = q.val; rw [e51]; omega)
  refine Eq.trans ?_ (congrArg (hiddenK m c) hemb).symm
  exact pay1_block (iblk m c 0 t) (iblk m c 2 t) (iblk m c 3 t) (iblk m c 4 t)
    (m ((c : Thread nD τ).loc main_arg1)) (gate (m ((c : Thread nD τ).loc main_arg3)) (m ((c : Thread nD τ).loc main_arg6)) (m ((c : Thread nD τ).loc main_arg7))) (m ((c : Thread nD τ).loc main_arg4)) (m ((c : Thread nD τ).loc main_arg5)) (edgeOf t p) p q
    (tpos_block m c t p) (gate_block m c t p) (fun k => proj_block m c t k q) (bias_block m c t q)

/-- Point `t` writes back block `t` of the positive scores' column. -/
theorem flushed6_eq (c : Dev nD) (t : Fin cfg0.N) :
    (dats m 0 c).flushed 6 t = ((cfg0.win 6).blk t).view.read (Elt Ideal) (posK m c) := by
  obtain ⟨e00, e01, e10, e11, e20, e21, e30, e31, e40, e50, e51, e60, e61, e70, e71⟩ := idx_facts t
  show (cfg0.win 6).cut (grid0.coords t) ((dats m 0 c).after 6 t) = _
  rw [after0_6]
  unfold out0_6
  rw [View.canon_unit_zero hz2]
  simp only [View.ld_unit_zero (S := S4000x128) hz2, View.ld_unit_zero (S := S4000x1) hz2, View.ld_unit_zero (S := S128x128) hz2,
    View.ld_unit_zero (S := S128) hz1]
  funext j
  obtain ⟨p, u, rfl⟩ : ∃ (p : Fin 4000) (u : Fin 1), j = ix2 p u := ⟨j 0, j 1, eq_ix2 j⟩
  rw [View.read_apply]
  have hemb : ((cfg0.win 6).blk t).view.emb (ix2 p u) = (ix2 (edgeOf t p) u : S500000x1.Idx) := funext fun a => Fin.ext (by
    match a with
    | ⟨0, _⟩ => show win0_6.index t (0 : Fin 2) * 4000 + 1 * p.val = t.val * 4000 + p.val; rw [e60]; omega
    | ⟨1, _⟩ => show win0_6.index t (1 : Fin 2) * 1 + 1 * u.val = u.val; rw [e61]; omega)
  refine Eq.trans ?_ (congrArg (posK m c) hemb).symm
  exact pay2_block (iblk m c 0 t) (iblk m c 2 t) (iblk m c 3 t) (iblk m c 4 t)
    (m ((c : Thread nD τ).loc main_arg1)) (gate (m ((c : Thread nD τ).loc main_arg3)) (m ((c : Thread nD τ).loc main_arg6)) (m ((c : Thread nD τ).loc main_arg7))) (m ((c : Thread nD τ).loc main_arg4)) (m ((c : Thread nD τ).loc main_arg5)) (edgeOf t p) p u
    (tpos_block m c t p) (gate_block m c t p) (fun k q => proj_block m c t k q) (fun q => bias_block m c t q)

/-- Point `t` writes back block `t` of the negative scores' column. -/
theorem flushed7_eq (c : Dev nD) (t : Fin cfg0.N) :
    (dats m 0 c).flushed 7 t = ((cfg0.win 7).blk t).view.read (Elt Ideal) (negK m c) := by
  obtain ⟨e00, e01, e10, e11, e20, e21, e30, e31, e40, e50, e51, e60, e61, e70, e71⟩ := idx_facts t
  show (cfg0.win 7).cut (grid0.coords t) ((dats m 0 c).after 7 t) = _
  rw [after0_7]
  unfold out0_7
  rw [View.canon_unit_zero hz2]
  simp only [View.ld_unit_zero (S := S4000x128) hz2, View.ld_unit_zero (S := S4000x1) hz2, View.ld_unit_zero (S := S128x128) hz2,
    View.ld_unit_zero (S := S128) hz1]
  funext j
  obtain ⟨p, u, rfl⟩ : ∃ (p : Fin 4000) (u : Fin 1), j = ix2 p u := ⟨j 0, j 1, eq_ix2 j⟩
  rw [View.read_apply]
  have hemb : ((cfg0.win 7).blk t).view.emb (ix2 p u) = (ix2 (edgeOf t p) u : S500000x1.Idx) := funext fun a => Fin.ext (by
    match a with
    | ⟨0, _⟩ => show win0_7.index t (0 : Fin 2) * 4000 + 1 * p.val = t.val * 4000 + p.val; rw [e70]; omega
    | ⟨1, _⟩ => show win0_7.index t (1 : Fin 2) * 1 + 1 * u.val = u.val; rw [e71]; omega)
  refine Eq.trans ?_ (congrArg (negK m c) hemb).symm
  exact pay3_block (iblk m c 0 t) (iblk m c 1 t) (iblk m c 2 t) (iblk m c 3 t) (iblk m c 4 t)
    (m ((c : Thread nD τ).loc main_arg1)) (m ((c : Thread nD τ).loc main_arg2)) (gate (m ((c : Thread nD τ).loc main_arg3)) (m ((c : Thread nD τ).loc main_arg6)) (m ((c : Thread nD τ).loc main_arg7))) (m ((c : Thread nD τ).loc main_arg4)) (m ((c : Thread nD τ).loc main_arg5)) (edgeOf t p) p u
    (tpos_block m c t p) (tneg_block m c t p) (gate_block m c t p) (fun k q => proj_block m c t k q) (fun q => bias_block m c t q)

/-! ## The blocks tile the arrays -/

/-- The point whose block holds edge `r`. -/
theorem point_of (r : Nat) (hr : r < 500000) : ∃ t : Fin cfg0.N, t.val = r / 4000 :=
  ⟨⟨r / 4000, by show r / 4000 < grid0.N; rw [N_0]; omega⟩, rfl⟩

/-- Every index of the hidden array is in some point's block. -/
theorem cover5 (i : S500000x128.Idx) : ∃ t : Fin cfg0.N, (cfg0.win 5).flush t = true ∧ i ∈ ((cfg0.win 5).blk t).view.set := by
  have h0 : (i 0).val < 500000 := (i 0).isLt
  have h1 : (i 1).val < 128 := (i 1).isLt
  obtain ⟨t, ht⟩ := point_of (i 0).val h0
  obtain ⟨e00, e01, e10, e11, e20, e21, e30, e31, e40, e50, e51, e60, e61, e70, e71⟩ := idx_facts t
  refine ⟨t, flush0_5 t, ?_⟩
  show i ∈ ((View.whole main_v17_0).slice (win0_5.rect t)).set
  rw [View.set_slice_whole, Rect.mem_set_unit]
  intro a
  match a with
  | ⟨0, _⟩ => show win0_5.index t (0 : Fin 2) * 4000 ≤ (i 0).val ∧ (i 0).val < win0_5.index t (0 : Fin 2) * 4000 + 4000; rw [e50, ht]; omega
  | ⟨1, _⟩ => show win0_5.index t (1 : Fin 2) * 128 ≤ (i 1).val ∧ (i 1).val < win0_5.index t (1 : Fin 2) * 128 + 128; rw [e51]; omega

/-- Every index of the positive scores' column is in some point's block. -/
theorem cover6 (i : S500000x1.Idx) : ∃ t : Fin cfg0.N, (cfg0.win 6).flush t = true ∧ i ∈ ((cfg0.win 6).blk t).view.set := by
  have h0 : (i 0).val < 500000 := (i 0).isLt
  have h1 : (i 1).val < 1 := (i 1).isLt
  obtain ⟨t, ht⟩ := point_of (i 0).val h0
  obtain ⟨e00, e01, e10, e11, e20, e21, e30, e31, e40, e50, e51, e60, e61, e70, e71⟩ := idx_facts t
  refine ⟨t, flush0_6 t, ?_⟩
  show i ∈ ((View.whole main_v17_1).slice (win0_6.rect t)).set
  rw [View.set_slice_whole, Rect.mem_set_unit]
  intro a
  match a with
  | ⟨0, _⟩ => show win0_6.index t (0 : Fin 2) * 4000 ≤ (i 0).val ∧ (i 0).val < win0_6.index t (0 : Fin 2) * 4000 + 4000; rw [e60, ht]; omega
  | ⟨1, _⟩ => show win0_6.index t (1 : Fin 2) * 1 ≤ (i 1).val ∧ (i 1).val < win0_6.index t (1 : Fin 2) * 1 + 1; rw [e61]; omega

/-- Every index of the negative scores' column is in some point's block. -/
theorem cover7 (i : S500000x1.Idx) : ∃ t : Fin cfg0.N, (cfg0.win 7).flush t = true ∧ i ∈ ((cfg0.win 7).blk t).view.set := by
  have h0 : (i 0).val < 500000 := (i 0).isLt
  have h1 : (i 1).val < 1 := (i 1).isLt
  obtain ⟨t, ht⟩ := point_of (i 0).val h0
  obtain ⟨e00, e01, e10, e11, e20, e21, e30, e31, e40, e50, e51, e60, e61, e70, e71⟩ := idx_facts t
  refine ⟨t, flush0_7 t, ?_⟩
  show i ∈ ((View.whole main_v17_2).slice (win0_7.rect t)).set
  rw [View.set_slice_whole, Rect.mem_set_unit]
  intro a
  match a with
  | ⟨0, _⟩ => show win0_7.index t (0 : Fin 2) * 4000 ≤ (i 0).val ∧ (i 0).val < win0_7.index t (0 : Fin 2) * 4000 + 4000; rw [e70, ht]; omega
  | ⟨1, _⟩ => show win0_7.index t (1 : Fin 2) * 1 ≤ (i 1).val ∧ (i 1).val < win0_7.index t (1 : Fin 2) * 1 + 1; rw [e71]; omega

/-! ## The arrays after the region -/

theorem final5 (c : Dev nD) : (dats m 0 c).arrAt 5 cfg0.N = hiddenK m c :=
  (dats m 0 c).arrAt_eq_of_cover 5 (hiddenK m c) (fun t _ => flushed5_eq m c t) cover5

theorem final6 (c : Dev nD) : (dats m 0 c).arrAt 6 cfg0.N = posK m c :=
  (dats m 0 c).arrAt_eq_of_cover 6 (posK m c) (fun t _ => flushed6_eq m c t) cover6

theorem final7 (c : Dev nD) : (dats m 0 c).arrAt 7 cfg0.N = negK m c :=
  (dats m 0 c).arrAt_eq_of_cover 7 (negK m c) (fun t _ => flushed7_eq m c t) cover7

end Cert.KernelIdeal.Hand

end
-- ==== Proof.LibColumn.lean ====
/-
  A one-column matrix read back as a vector: the `[a, 1] → [a]` shape cast at an index written by its
  coordinate.  (The library reads the row form `[1, a] → [a]`; this is the column form, by the same
  row-major equation.)
-/
import Idealize.ShloMosaic.Lib.Pipeline.Value
import Idealize.ShloMosaic.Lib.ValueIdx

noncomputable section

namespace Cert.LibColumn

open Idealize.ShloMosaic Idealize.ShloMosaic.ValueIdx

variable {α : Type}

/-- A column `[a, 1]` cast to the vector `[a]` reads, at `i`, the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibColumn

end
-- ==== Proof.KernelRun.lean ====
/-
  The kernel program's run, read.

  After the region the first output array is the hidden array; the two score columns are reshaped to vectors by
  the host lines that follow, and a scores column read back as a vector is the scores vector (entry `r` of the
  vector is entry `(r, 0)` of the column).  So the program ends with the specification's three arrays of its
  arguments, and the arguments as launched.
-/
import proofs.«143007_j14688788152633_2_alg».proof.Proof.Blocks
import proofs.«143007_j14688788152633_2_alg».proof.Proof.LibColumn
import Idealize.ShloMosaic.Lib.StableHlo.Run

noncomputable section

open scoped BigOperators

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx Cert.EdgeScores
open Idealize.ShloMosaic.Pipeline (Dat)

/-- A scores column read back as a vector is the scores vector. -/
theorem scoreCol_cast (h x : (⟨2, ![500000, 128]⟩ : Shape).Idx → EReal)
    (hc : (⟨2, ![500000, 1]⟩ : Shape).ShapeCasts ⟨1, ![500000]⟩) :
    shapeCast ⟨1, ![500000]⟩ (scoreCol h x) hc = score h x := by
  funext i
  obtain ⟨r, rfl⟩ : ∃ r : Fin 500000, i = ix1 r := ⟨i 0, eq_ix1 i⟩
  exact Cert.LibColumn.shapeCast_a1_a_apply _ hc r

variable (m : (ℓ : Loc nD τ sig) → Buf (Elt Ideal) ℓ) (ρ : Dev nD → PrngReg)

/-- The host line after the region that reshapes the positive scores' column: its result is that column, cast. -/
theorem tail_pos (c : Dev nD) :
    Pipeline.afterTail₀ cfgs (dats m) 0 (V0 m) [hostOps1] c main_v18 = shapeCast S500000 (posK m c) shapeCasts_S500000x1_S500000 := by
  have hw : Pipeline.withArrays (cfgs 0).spec c (V0 m c) (fun w => (dats m 0 c).arrAt w (cfgs 0).N) (Proc.devRef .tc main_v17_1) = posK m c :=
    (Pipeline.withArrays_arr spec0 launch0.win.arr_inj c _ _ 6).trans (final6 m c)
  unfold Pipeline.afterTail₀
  show StableHlo.after hostOps1 _ (Proc.devRef .tc main_v18) = _
  after_results
  rw [hw]
  rfl

/-- The same for the negative scores. -/
theorem tail_neg (c : Dev nD) :
    Pipeline.afterTail₀ cfgs (dats m) 0 (V0 m) [hostOps1] c main_v19 = shapeCast S500000 (negK m c) shapeCasts_S500000x1_S500000 := by
  have hw : Pipeline.withArrays (cfgs 0).spec c (V0 m c) (fun w => (dats m 0 c).arrAt w (cfgs 0).N) (Proc.devRef .tc main_v17_2) = negK m c :=
    (Pipeline.withArrays_arr spec0 launch0.win.arr_inj c _ _ 7).trans (final7 m c)
  unfold Pipeline.afterTail₀
  show StableHlo.after hostOps1 _ (Proc.devRef .tc main_v19) = _
  after_results
  rw [hw]
  rfl

/-- Every weakly fair execution of the kernel program ends with the hidden array and the two score vectors of
    the specification, and the arguments unchanged. -/
theorem run : θ_run defs (onTc (τ := τ) (main (F := Ideal))) ⟨m, fun _ => 0, ρ⟩ fun r => ∀ c : Dev nD,
      r.2.mem ((c : Thread nD τ).loc main_v17_0) = (hidden (m ((c : Thread nD τ).loc main_arg1)) (gate (m ((c : Thread nD τ).loc main_arg3)) (m ((c : Thread nD τ).loc main_arg6)) (m ((c : Thread nD τ).loc main_arg7))) (m ((c : Thread nD τ).loc main_arg4)) (m ((c : Thread nD τ).loc main_arg5)))
      ∧ r.2.mem ((c : Thread nD τ).loc main_v18) = score (hidden (m ((c : Thread nD τ).loc main_arg1)) (gate (m ((c : Thread nD τ).loc main_arg3)) (m ((c : Thread nD τ).loc main_arg6)) (m ((c : Thread nD τ).loc main_arg7))) (m ((c : Thread nD τ).loc main_arg4)) (m ((c : Thread nD τ).loc main_arg5))) (m ((c : Thread nD τ).loc main_arg1))
      ∧ r.2.mem ((c : Thread nD τ).loc main_v19) = score (hidden (m ((c : Thread nD τ).loc main_arg1)) (gate (m ((c : Thread nD τ).loc main_arg3)) (m ((c : Thread nD τ).loc main_arg6)) (m ((c : Thread nD τ).loc main_arg7))) (m ((c : Thread nD τ).loc main_arg4)) (m ((c : Thread nD τ).loc main_arg5))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 5).trans (final5 m c),
      (((h c).2 main_v18 (Pipeline.mem_restRefs_of main_v18 (by decide) (by decide))).trans (tail_pos m c)).trans
        (scoreCol_cast _ _ shapeCasts_S500000x1_S500000),
      (((h c).2 main_v19 (Pipeline.mem_restRefs_of main_v19 (by decide) (by decide))).trans (tail_neg m c)).trans
        (scoreCol_cast _ _ shapeCasts_S500000x1_S500000),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Hand

end
-- ==== Proof.RefSpec.lean ====
/-
  The reference's three results are the specification.

  Read one operation at a time, the reference's hidden array at `(r, u)` is the maximum of
  `gate r · (∑ k, tpos r k · K k u) + bias u` and the zero word — the gathered gate broadcast along the row,
  the bias along the column — and each score at `r` is the zero a host sum starts from plus the sum over the
  row's 128 entries of hidden · tail.  The gather itself is left closed: both programs apply the same one.
-/
import proofs.«143007_j14688788152633_2_alg».proof.Proof.Gen.ReferenceIdeal.Read
import proofs.«143007_j14688788152633_2_alg».proof.Proof.Spec

noncomputable section

open scoped BigOperators

namespace Cert.ReferenceIdeal.Hand

open Cert.ReferenceIdeal Cert.ReferenceIdeal.Gen Cert.ReferenceIdeal.Read Idealize.ShloMosaic Idealize.ShloMosaic.ValueIdx Cert.EdgeScores

/-- The hidden array. -/
theorem hidden_eq (x1 : (⟨S500000x128, .f32⟩ : BufTy).Contents (Elt Ideal)) (x3 : (⟨S16384x16384, .f32⟩ : BufTy).Contents (Elt Ideal)) (x4 : (⟨S128x128, .f32⟩ : BufTy).Contents (Elt Ideal)) (x5 : (⟨S128, .f32⟩ : BufTy).Contents (Elt Ideal)) (x6 x7 : (⟨S1x500000, .i32⟩ : BufTy).Contents (Elt Ideal)) :
    val_main_v23 (F := Ideal) x1 x3 x4 x5 x6 x7 = hidden x1 (val_main_v16 (F := Ideal) x3 x6 x7) x4 x5 := by
  funext i
  obtain ⟨r, u, rfl⟩ : ∃ (r : Fin 500000) (u : Fin 128), i = ix2 r u := ⟨i 0, i 1, eq_ix2 i⟩
  have e1 : idx_main_v17 (idx_main_v18 (ix2 r u)) = ix1 r := funext fun a => Fin.ext (by
    match a with
    | ⟨0, _⟩ => rfl)
  have e2 : ∀ k : Fin 128, lidx_main_v0 (ix2 r u) k = ix2 r k := fun k => funext fun a => Fin.ext (by
    match a with
    | ⟨0, _⟩ => rfl
    | ⟨1, _⟩ => rfl)
  have e3 : ∀ k : Fin 128, ridx_main_v0 (ix2 r u) k = ix2 k u := fun k => funext fun a => Fin.ext (by
    match a with
    | ⟨0, _⟩ => rfl
    | ⟨1, _⟩ => rfl)
  have e4 : idx_main_v20 (idx_main_v21 (ix2 r u)) = ix1 u := funext fun a => Fin.ext (by
    match a with
    | ⟨0, _⟩ => rfl)
  rw [val_main_v23_apply, val_main_v22_apply, val_main_v19_apply, val_main_v18_apply, val_main_v17_apply, val_main_v0_apply,
    val_main_v21_apply, val_main_v20_apply, val_main_call0_v0_apply, val_main_call0_cst_apply]
  simp only [e1, e2, e3, e4]
  rfl

/-- The positive scores. -/
theorem pos_eq (x1 : (⟨S500000x128, .f32⟩ : BufTy).Contents (Elt Ideal)) (x3 : (⟨S16384x16384, .f32⟩ : BufTy).Contents (Elt Ideal)) (x4 : (⟨S128x128, .f32⟩ : BufTy).Contents (Elt Ideal)) (x5 : (⟨S128, .f32⟩ : BufTy).Contents (Elt Ideal)) (x6 x7 : (⟨S1x500000, .i32⟩ : BufTy).Contents (Elt Ideal)) :
    val_main_v25 (F := Ideal) x1 x3 x4 x5 x6 x7 = score (hidden x1 (val_main_v16 (F := Ideal) x3 x6 x7) x4 x5) x1 := by
  funext i
  obtain ⟨r, rfl⟩ : ∃ r : Fin 500000, i = ix1 r := ⟨i 0, eq_ix1 i⟩
  have e : ∀ k : Fin 128, idx_main_v25 (ix1 r) k = ix2 r k := fun k => funext fun a => Fin.ext (by
    match a with
    | ⟨0, _⟩ => rfl
    | ⟨1, _⟩ => rfl)
  rw [val_main_v25_apply, val_main_cst_apply]
  simp only [val_main_v24_apply, e, hidden_eq]
  show Ideal.ofBits .f32 0x00000000#32 + _ = _
  rw [Ideal.ofBits_zero_f32, zero_add]
  rfl

/-- The negative scores. -/
theorem neg_eq (x1 x2 : (⟨S500000x128, .f32⟩ : BufTy).Contents (Elt Ideal)) (x3 : (⟨S16384x16384, .f32⟩ : BufTy).Contents (Elt Ideal)) (x4 : (⟨S128x128, .f32⟩ : BufTy).Contents (Elt Ideal)) (x5 : (⟨S128, .f32⟩ : BufTy).Contents (Elt Ideal)) (x6 x7 : (⟨S1x500000, .i32⟩ : BufTy).Contents (Elt Ideal)) :
    val_main_v27 (F := Ideal) x1 x2 x3 x4 x5 x6 x7 = score (hidden x1 (val_main_v16 (F := Ideal) x3 x6 x7) x4 x5) x2 := by
  funext i
  obtain ⟨r, rfl⟩ : ∃ r : Fin 500000, i = ix1 r := ⟨i 0, eq_ix1 i⟩
  have e : ∀ k : Fin 128, idx_main_v27 (ix1 r) k = ix2 r k := fun k => funext fun a => Fin.ext (by
    match a with
    | ⟨0, _⟩ => rfl
    | ⟨1, _⟩ => rfl)
  rw [val_main_v27_apply, val_main_cst_3_apply]
  simp only [val_main_v26_apply, e, hidden_eq]
  show Ideal.ofBits .f32 0x00000000#32 + _ = _
  rw [Ideal.ofBits_zero_f32, zero_add]
  rfl

end Cert.ReferenceIdeal.Hand

end
-- ==== Proof.lean ====
/-
  The kernel and its reference compute the same three arrays over the extended reals.

  For each of 500000 edges both programs gather a gate from a 16384 × 16384 table at the edge's (head, tail)
  indices, project the edge's positive-tail features through a 128 × 128 matrix, scale the projected row by the
  gate, add a bias and rectify; the results are this hidden array and, per edge, its inner products with the
  positive-tail and with the negative-tail features (Proof/Spec.lean).  The kernel does this block by block, 4000
  edges at a grid point; the reference on whole arrays.  At the ideal values the kernel's rounding to bf16 in
  front of the matrix product is the identity, a matrix product into a zero accumulator and a lane reduction are
  plain sums, so each block is a block of the specification (Proof/Body.lean, Proof/Blocks.lean), the blocks tile
  the arrays, and the host lines after the region only reshape the score columns to vectors (Proof/KernelRun.lean).
  The reference's operations read one at a time give the same three functions (Proof/RefSpec.lean).  Both
  programs compute the gates by the same host operations, so the gather is never opened, and no law used needs
  the inputs finite: the two sides are the same expression, operation by operation.
-/
import proofs.«143007_j14688788152633_2_alg».proof.Defs
import proofs.«143007_j14688788152633_2_alg».proof.Proof.Gen.Kernel
import proofs.«143007_j14688788152633_2_alg».proof.Proof.Gen.Kernel.Skeleton
import proofs.«143007_j14688788152633_2_alg».proof.Proof.Gen.Kernel.Launch
import proofs.«143007_j14688788152633_2_alg».proof.Proof.Gen.Kernel.Points
import proofs.«143007_j14688788152633_2_alg».proof.Proof.Gen.Kernel.Frame
import proofs.«143007_j14688788152633_2_alg».proof.Proof.Gen.KernelIdeal
import proofs.«143007_j14688788152633_2_alg».proof.Proof.Gen.KernelIdeal.Skeleton
import proofs.«143007_j14688788152633_2_alg».proof.Proof.Gen.KernelIdeal.Launch
import proofs.«143007_j14688788152633_2_alg».proof.Proof.Gen.KernelIdeal.Points
import proofs.«143007_j14688788152633_2_alg».proof.Proof.Gen.KernelIdeal.Frame
import proofs.«143007_j14688788152633_2_alg».proof.Proof.Gen.ReferenceIdeal
import proofs.«143007_j14688788152633_2_alg».proof.Proof.Gen.Pre_finite_inputs
import proofs.«143007_j14688788152633_2_alg».proof.Proof.Gen.ReferenceIdeal.Run
import proofs.«143007_j14688788152633_2_alg».proof.Proof.Gen.ReferenceIdeal.Read
import proofs.«143007_j14688788152633_2_alg».proof.Proof.KernelRun
import proofs.«143007_j14688788152633_2_alg».proof.Proof.RefSpec
import Idealize.ShloMosaic.Adequacy
import Idealize.ShloMosaic.Init

noncomputable section

namespace Cert.Proof

open Idealize.ShloMosaic Idealize.ShloMosaic.TcCoe Idealize.SL.Sem

/-- The two programs gather the gates by the same operations on the same arguments. -/
theorem gate_eq (x3 : (⟨Cert.KernelIdeal.S16384x16384, .f32⟩ : BufTy).Contents (Elt Ideal)) (x6 x7 : (⟨Cert.KernelIdeal.S1x500000, .i32⟩ : BufTy).Contents (Elt Ideal)) :
    Cert.KernelIdeal.Hand.gate x3 x6 x7 = Cert.ReferenceIdeal.Read.val_main_v16 (F := Ideal) x3 x6 x7 := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- From memories agreeing on the arguments both programs end with the specification's hidden array and score
    vectors of those arguments. -/
theorem algebraic : Cert.algebraic_KernelIdeal_ReferenceIdeal := by
  intro m ρ m' ρ' _ hagree
  refine ⟨_, _, _, Cert.KernelIdeal.Hand.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  obtain ⟨r0, r1, r2, kept⟩ := h c
  refine ⟨r0.trans ?_, r1.trans ?_, r2.trans ?_, kept⟩
  · rw [Cert.ReferenceIdeal.Read.val_main_v23_eq, Cert.ReferenceIdeal.Hand.hidden_eq, a1, a3, a4, a5, a6, a7, ← gate_eq]
  · rw [Cert.ReferenceIdeal.Read.val_main_v25_eq, Cert.ReferenceIdeal.Hand.pos_eq, a1, a3, a4, a5, a6, a7, ← gate_eq]
  · rw [Cert.ReferenceIdeal.Read.val_main_v27_eq, Cert.ReferenceIdeal.Hand.neg_eq, a1, a2, a3, a4, a5, a6, a7, ← gate_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
